-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S327680x4 : Shape := ⟨2, ![327680, 4]⟩
abbrev S8x48 : Shape := ⟨2, ![8, 48]⟩
abbrev S2097152x4 : Shape := ⟨2, ![2097152, 4]⟩
abbrev S_ : Shape := ⟨0, ![]⟩

class Facts : Prop where
  bcast_S_S327680x4 : S_.BroadcastsInDim S327680x4 (![] : Fin 0 → Fin S327680x4.rank)
  reducesTo_S327680x4_S_d0_1 : S327680x4.ReducesTo [0, 1] S_
  h_S_ : 0 < S_.numel
  bcast_S_S8x48 : S_.BroadcastsInDim S8x48 (![] : Fin 0 → Fin S8x48.rank)
  reducesTo_S8x48_S_d0_1 : S8x48.ReducesTo [0, 1] S_

variable [Facts]

def fn {F : FTy → Type} [FloatOps F] (main_arg0 : FVec F S327680x4 .f32) (main_arg1 : FVec F S8x48 .f32) (main_arg2 : IVec S2097152x4 32) (main_arg3 : IVec S2097152x4 32) : IVec S_ 1 :=
  let main_v0 : FVec F S327680x4 .f32 := Host.absf main_arg0
  let main_cst : FVec F S_ .f32 := constant S_ .f32 0x7F800000#32
  let main_v1 : FVec F S327680x4 .f32 := broadcastInDim S327680x4 ![] bcast_S_S327680x4 main_cst
  let main_v2 : IVec S327680x4 1 := cmpf .olt main_v0 main_v1
  let main_c : IVec S_ 1 := constantI S_ 1 1#1
  let main_v3 : IVec S_ 1 := (fun x v => Host.reduce IntOp.andi x v reducesTo_S327680x4_S_d0_1 h_S_) main_v2 main_c
  let main_v4 : FVec F S8x48 .f32 := Host.absf main_arg1
  let main_cst_0 : FVec F S_ .f32 := constant S_ .f32 0x7F800000#32
  let main_v5 : FVec F S8x48 .f32 := broadcastInDim S8x48 ![] bcast_S_S8x48 main_cst_0
  let main_v6 : IVec S8x48 1 := cmpf .olt main_v4 main_v5
  let main_c_1 : IVec S_ 1 := constantI S_ 1 1#1
  let main_v7 : IVec S_ 1 := (fun x v => Host.reduce IntOp.andi x v reducesTo_S8x48_S_d0_1 h_S_) main_v6 main_c_1
  let main_v8 : IVec S_ 1 := andi main_v3 main_v7
  main_v8
-- ==== Kernel.lean ====
abbrev S327680x4 : Shape := ⟨2, ![327680, 4]⟩
abbrev S8x48 : Shape := ⟨2, ![8, 48]⟩
abbrev S2097152x4 : Shape := ⟨2, ![2097152, 4]⟩
abbrev S65536x4 : Shape := ⟨2, ![65536, 4]⟩
abbrev S262144x4 : Shape := ⟨2, ![262144, 4]⟩
abbrev S4 : Shape := ⟨1, ![4]⟩
abbrev S1x4 : Shape := ⟨2, ![1, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x48 : Shape := ⟨2, ![2097152, 48]⟩
abbrev S16384x8 : Shape := ⟨2, ![16384, 8]⟩
abbrev S16384x48 : Shape := ⟨2, ![16384, 48]⟩

abbrev nBuf : Space → Nat
  | .hbm => 52
  | .vmem => 5
  | .smem => 0
  | _ => 0

abbrev bufTy : (tb : Table) → Fin (tcTables nBuf tb) → BufTy
  | .hbm, ⟨0, _⟩ => ⟨S327680x4, .f32⟩
  | .hbm, ⟨1, _⟩ => ⟨S8x48, .f32⟩
  | .hbm, ⟨2, _⟩ => ⟨S2097152x4, .i32⟩
  | .hbm, ⟨3, _⟩ => ⟨S2097152x4, .i32⟩
  | .hbm, ⟨4, _⟩ => ⟨S65536x4, .f32⟩
  | .hbm, ⟨5, _⟩ => ⟨S262144x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S2097152x4, .i32⟩
  | .hbm, ⟨10, _⟩ => ⟨S2097152x4, .i1⟩
  | .hbm, ⟨11, _⟩ => ⟨S_, .i32⟩
  | .hbm, ⟨12, _⟩ => ⟨S2097152x4, .i32⟩
  | .hbm, ⟨13, _⟩ => ⟨S2097152x4, .i32⟩
  | .hbm, ⟨14, _⟩ => ⟨S2097152x4, .i32⟩
  | .hbm, ⟨15, _⟩ => ⟨S_, .i32⟩
  | .hbm, ⟨16, _⟩ => ⟨S1x4, .i32⟩
  | .hbm, ⟨17, _⟩ => ⟨S1x4, .i1⟩
  | .hbm, ⟨18, _⟩ => ⟨S_, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S2097152x4, .i32⟩
  | .hbm, ⟨23, _⟩ => ⟨S2097152x4x1, .i32⟩
  | .hbm, ⟨24, _⟩ => ⟨S2097152x4x1, .i32⟩
  | .hbm, ⟨25, _⟩ => ⟨S2097152x4x2, .i32⟩
  | .hbm, ⟨26, _⟩ => ⟨S2097152x4, .f32⟩
  | .hbm, ⟨27, _⟩ => ⟨S4, .i32⟩
  | .hbm, ⟨28, _⟩ => ⟨S1x4, .i32⟩
  | .hbm, ⟨29, _⟩ => ⟨S_, .i32⟩
  | .hbm, ⟨30, _⟩ => ⟨S2097152x4, .i32⟩
  | .hbm, ⟨31, _⟩ => ⟨S2097152x4, .i1⟩
  | .hbm, ⟨32, _⟩ => ⟨S_, .i32⟩
  | .hbm, ⟨33, _⟩ => ⟨S2097152x4, .i32⟩
  | .hbm, ⟨34, _⟩ => ⟨S2097152x4, .i32⟩
  | .hbm, ⟨35, _⟩ => ⟨S2097152x4, .i32⟩
  | .hbm, ⟨36, _⟩ => ⟨S_, .i32⟩
  | .hbm, ⟨37, _⟩ => ⟨S1x4, .i32⟩
  | .hbm, ⟨38, _⟩ => ⟨S1x4, .i1⟩
  | .hbm, ⟨39, _⟩ => ⟨S_, .i32⟩
  | .hbm, ⟨40, _⟩ => ⟨S1x4, .i32⟩
  | .hbm, ⟨41, _⟩ => ⟨S1x4, .i32⟩
  | .hbm, ⟨42, _⟩ => ⟨S1x4, .i32⟩
  | .hbm, ⟨43, _⟩ => ⟨S2097152x4, .i32⟩
  | .hbm, ⟨44, _⟩ => ⟨S2097152x4x1, .i32⟩
  | .hbm, ⟨45, _⟩ => ⟨S2097152x4x1, .i32⟩
  | .hbm, ⟨46, _⟩ => ⟨S2097152x4x2, .i32⟩
  | .hbm, ⟨47, _⟩ => ⟨S2097152x4, .f32⟩
  | .hbm, ⟨48, _⟩ => ⟨S2097152x8, .f32⟩
  | .hbm, ⟨49, _⟩ => ⟨S2097152x8, .bf16⟩
  | .hbm, ⟨50, _⟩ => ⟨S8x48, .bf16⟩
  | .hbm, ⟨51, _⟩ => ⟨S2097152x48, .f32⟩
  | .local _ .vmem, ⟨0, _⟩ => ⟨S16384x8, .bf16⟩
  | .local _ .vmem, ⟨1, _⟩ => ⟨S16384x8, .bf16⟩
  | .local _ .vmem, ⟨2, _⟩ => ⟨S8x48, .bf16⟩
  | .local _ .vmem, ⟨3, _⟩ => ⟨S16384x48, .f32⟩
  | .local _ .vmem, ⟨4, _⟩ => ⟨S16384x48, .f32⟩
  | _, _ => ⟨S327680x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S327680x4_S65536x4_0_0 : S327680x4.Slices ![0, 0] S65536x4
  slices_S327680x4_S262144x4_65536_0 : S327680x4.Slices ![65536, 0] S262144x4
  bcast_S4_S1x4_1 : S4.BroadcastsInDim S1x4 (![1] : Fin 1 → Fin S1x4.rank)
  bcast_S_S2097152x4 : S_.BroadcastsInDim S2097152x4 (![] : Fin 0 → Fin S2097152x4.rank)
  bcast_S_S1x4 : S_.BroadcastsInDim S1x4 (![] : Fin 0 → Fin S1x4.rank)
  bcast_S1x4_S2097152x4_0_1 : S1x4.BroadcastsInDim S2097152x4 (![0, 1] : Fin 2 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  concatenates_S2097152x4_S2097152x4_S2097152x8_d1 : Shape.Concatenates [S2097152x4, S2097152x4] S2097152x8 1
  bitsLt_bf16_f32 : FTy.bits .bf16 < FTy.bits .f32
  inb_S16384x8_S16384x8_0_0 : ∀ a, (![0, 0] : Fin 2 → Nat) a + S16384x8.size a ≤ S16384x8.size a
  h_S16384x8 : 0 < S16384x8.numel
  shapeCasts_S16384x8_S16384x8 : S16384x8.ShapeCasts S16384x8
  inb_S8x48_S8x48_0_0 : ∀ a, (![0, 0] : Fin 2 → Nat) a + S8x48.size a ≤ S8x48.size a
  h_S8x48 : 0 < S8x48.numel
  shapeCasts_S8x48_S8x48 : S8x48.ShapeCasts S8x48
  inb_S16384x48_S16384x48_0_0 : ∀ a, (![0, 0] : Fin 2 → Nat) a + S16384x48.size a ≤ S16384x48.size a
  h_S16384x48 : 0 < S16384x48.numel
  gather_S65536x4_S2097152x4x2_S2097152x4_n_01_n_n_01_2_11_wf : GatherDims.WF S65536x4 S2097152x4x2 S2097152x4 [] [0, 1] [] [0, 1] [] 2 ![1, 1]
  gather_S262144x4_S2097152x4x2_S2097152x4_n_01_n_n_01_2_11_wf : GatherDims.WF S262144x4 S2097152x4x2 S2097152x4 [] [0, 1] [] [0, 1] [] 2 ![1, 1]
  dot_S16384x8_S8x48_S16384x48_1_0_0_1_n_n_wf : DotDims.WF S16384x8 S8x48 S16384x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S2097152x8.size a
  hwx0_0 : ∀ i : grid0.Coords, EltTy.bits .bf16 = 32 ∨ (Rect.block (s := S2097152x8) S16384x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x48.size a ≤ S8x48.size a
  hwx0_1 : ∀ i : grid0.Coords, EltTy.bits .bf16 = 32 ∨ (Rect.block (s := S8x48) S8x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x48.size a ≤ S2097152x48.size a
  hwx0_2 : ∀ i : grid0.Coords, EltTy.bits .f32 = 32 ∨ (Rect.block (s := S2097152x48) S16384x48.size (cc0_transform_2 i) (hinb0_2 i)).WholeWords (EltTy.packing .f32)

variable [Facts₀]

def gather_S65536x4_S2097152x4x2_S2097152x4_n_01_n_n_01_2_11 : GatherDims S65536x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S65536x4_S2097152x4x2_S2097152x4_n_01_n_n_01_2_11_wf
def gather_S262144x4_S2097152x4x2_S2097152x4_n_01_n_n_01_2_11 : GatherDims S262144x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S262144x4_S2097152x4x2_S2097152x4_n_01_n_n_01_2_11_wf
def dot_S16384x8_S8x48_S16384x48_1_0_0_1_n_n : DotDims S16384x8 S8x48 S16384x48 where
  lhsContracting := [1]
  rhsContracting := [0]
  lhsNonContracting := [0]
  rhsNonContracting := [1]
  lhsBatch := []
  rhsBatch := []
  wf := dot_S16384x8_S8x48_S16384x48_1_0_0_1_n_n_wf

abbrev win0_0 : Pipeline.Window sig grid0 :=
  Pipeline.Window.ofSpec (Memref.whole main_v37) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S16384x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S327680x4 : Shape := ⟨2, ![327680, 4]⟩
abbrev S8x48 : Shape := ⟨2, ![8, 48]⟩
abbrev S2097152x4 : Shape := ⟨2, ![2097152, 4]⟩
abbrev S65536x4 : Shape := ⟨2, ![65536, 4]⟩
abbrev S262144x4 : Shape := ⟨2, ![262144, 4]⟩
abbrev S4 : Shape := ⟨1, ![4]⟩
abbrev S1x4 : Shape := ⟨2, ![1, 4]⟩
abbrev S_ : Shape := ⟨0, ![]⟩
abbrev S2097152x4x1 : Shape := ⟨3, ![2097152, 4, 1]⟩
abbrev S2097152x4x2 : Shape := ⟨3, ![2097152, 4, 2]⟩
abbrev S2097152x8 : Shape := ⟨2, ![2097152, 8]⟩
abbrev S2097152x48 : Shape := ⟨2, ![2097152, 48]⟩

abbrev nBuf : Space → Nat
  | .hbm => 50
  | .vmem => 0
  | .smem => 0
  | _ => 0

abbrev bufTy : (tb : Table) → Fin (tcTables nBuf tb) → BufTy
  | .hbm, ⟨0, _⟩ => ⟨S327680x4, .f32⟩
  | .hbm, ⟨1, _⟩ => ⟨S8x48, .f32⟩
  | .hbm, ⟨2, _⟩ => ⟨S2097152x4, .i32⟩
  | .hbm, ⟨3, _⟩ => ⟨S2097152x4, .i32⟩
  | .hbm, ⟨4, _⟩ => ⟨S65536x4, .f32⟩
  | .hbm, ⟨5, _⟩ => ⟨S262144x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S2097152x4, .i32⟩
  | .hbm, ⟨10, _⟩ => ⟨S2097152x4, .i1⟩
  | .hbm, ⟨11, _⟩ => ⟨S_, .i32⟩
  | .hbm, ⟨12, _⟩ => ⟨S2097152x4, .i32⟩
  | .hbm, ⟨13, _⟩ => ⟨S2097152x4, .i32⟩
  | .hbm, ⟨14, _⟩ => ⟨S2097152x4, .i32⟩
  | .hbm, ⟨15, _⟩ => ⟨S_, .i32⟩
  | .hbm, ⟨16, _⟩ => ⟨S1x4, .i32⟩
  | .hbm, ⟨17, _⟩ => ⟨S1x4, .i1⟩
  | .hbm, ⟨18, _⟩ => ⟨S_, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S2097152x4, .i32⟩
  | .hbm, ⟨23, _⟩ => ⟨S2097152x4x1, .i32⟩
  | .hbm, ⟨24, _⟩ => ⟨S2097152x4x1, .i32⟩
  | .hbm, ⟨25, _⟩ => ⟨S2097152x4x2, .i32⟩
  | .hbm, ⟨26, _⟩ => ⟨S2097152x4, .f32⟩
  | .hbm, ⟨27, _⟩ => ⟨S4, .i32⟩
  | .hbm, ⟨28, _⟩ => ⟨S1x4, .i32⟩
  | .hbm, ⟨29, _⟩ => ⟨S_, .i32⟩
  | .hbm, ⟨30, _⟩ => ⟨S2097152x4, .i32⟩
  | .hbm, ⟨31, _⟩ => ⟨S2097152x4, .i1⟩
  | .hbm, ⟨32, _⟩ => ⟨S_, .i32⟩
  | .hbm, ⟨33, _⟩ => ⟨S2097152x4, .i32⟩
  | .hbm, ⟨34, _⟩ => ⟨S2097152x4, .i32⟩
  | .hbm, ⟨35, _⟩ => ⟨S2097152x4, .i32⟩
  | .hbm, ⟨36, _⟩ => ⟨S_, .i32⟩
  | .hbm, ⟨37, _⟩ => ⟨S1x4, .i32⟩
  | .hbm, ⟨38, _⟩ => ⟨S1x4, .i1⟩
  | .hbm, ⟨39, _⟩ => ⟨S_, .i32⟩
  | .hbm, ⟨40, _⟩ => ⟨S1x4, .i32⟩
  | .hbm, ⟨41, _⟩ => ⟨S1x4, .i32⟩
  | .hbm, ⟨42, _⟩ => ⟨S1x4, .i32⟩
  | .hbm, ⟨43, _⟩ => ⟨S2097152x4, .i32⟩
  | .hbm, ⟨44, _⟩ => ⟨S2097152x4x1, .i32⟩
  | .hbm, ⟨45, _⟩ => ⟨S2097152x4x1, .i32⟩
  | .hbm, ⟨46, _⟩ => ⟨S2097152x4x2, .i32⟩
  | .hbm, ⟨47, _⟩ => ⟨S2097152x4, .f32⟩
  | .hbm, ⟨48, _⟩ => ⟨S2097152x8, .f32⟩
  | .hbm, ⟨49, _⟩ => ⟨S2097152x48, .f32⟩
  | _, _ => ⟨S327680x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  slices_S327680x4_S65536x4_0_0 : S327680x4.Slices ![0, 0] S65536x4
  slices_S327680x4_S262144x4_65536_0 : S327680x4.Slices ![65536, 0] S262144x4
  bcast_S4_S1x4_1 : S4.BroadcastsInDim S1x4 (![1] : Fin 1 → Fin S1x4.rank)
  bcast_S_S2097152x4 : S_.BroadcastsInDim S2097152x4 (![] : Fin 0 → Fin S2097152x4.rank)
  bcast_S_S1x4 : S_.BroadcastsInDim S1x4 (![] : Fin 0 → Fin S1x4.rank)
  bcast_S1x4_S2097152x4_0_1 : S1x4.BroadcastsInDim S2097152x4 (![0, 1] : Fin 2 → Fin S2097152x4.rank)
  bcast_S2097152x4_S2097152x4x1_0_1 : S2097152x4.BroadcastsInDim S2097152x4x1 (![0, 1] : Fin 2 → Fin S2097152x4x1.rank)
  concatenates_S2097152x4x1_S2097152x4x1_S2097152x4x2_d2 : Shape.Concatenates [S2097152x4x1, S2097152x4x1] S2097152x4x2 2
  concatenates_S2097152x4_S2097152x4_S2097152x8_d1 : Shape.Concatenates [S2097152x4, S2097152x4] S2097152x8 1
  gather_S65536x4_S2097152x4x2_S2097152x4_n_01_n_n_01_2_11_wf : GatherDims.WF S65536x4 S2097152x4x2 S2097152x4 [] [0, 1] [] [0, 1] [] 2 ![1, 1]
  gather_S262144x4_S2097152x4x2_S2097152x4_n_01_n_n_01_2_11_wf : GatherDims.WF S262144x4 S2097152x4x2 S2097152x4 [] [0, 1] [] [0, 1] [] 2 ![1, 1]
  dot_S2097152x8_S8x48_S2097152x48_1_0_0_1_n_n_wf : DotDims.WF S2097152x8 S8x48 S2097152x48 [1] [0] [0] [1] [] []

variable [Facts₀]

def gather_S65536x4_S2097152x4x2_S2097152x4_n_01_n_n_01_2_11 : GatherDims S65536x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S65536x4_S2097152x4x2_S2097152x4_n_01_n_n_01_2_11_wf
def gather_S262144x4_S2097152x4x2_S2097152x4_n_01_n_n_01_2_11 : GatherDims S262144x4 S2097152x4x2 S2097152x4 where
  offsetDims := []
  collapsedSliceDims := [0, 1]
  operandBatchingDims := []
  startIndicesBatchingDims := []
  startIndexMap := [0, 1]
  indexVectorDim := 2
  sliceSizes := ![1, 1]
  wf := gather_S262144x4_S2097152x4x2_S2097152x4_n_01_n_n_01_2_11_wf
def dot_S2097152x8_S8x48_S2097152x48_1_0_0_1_n_n : DotDims S2097152x8 S8x48 S2097152x48 where
  lhsContracting := [1]
  rhsContracting := [0]
  lhsNonContracting := [0]
  rhsNonContracting := [1]
  lhsBatch := []
  rhsBatch := []
  wf := dot_S2097152x8_S8x48_S2097152x48_1_0_0_1_n_n_wf

class Facts : Prop extends Facts₀ where

variable [Facts]
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.KernelPayload.lean ====
/-
  What the kernel's body computes at one grid point, entry by entry.

  At a grid point the body loads a block of 16384 feature rows (16384 × 8) and the whole 8 × 48 weight matrix, and stores
  their matrix product accumulated into zero. At the exact instance the entry at row p and column q of what is stored is
  the sum over the eight feature columns k of block entry (p, k) times weight (k, q).
-/
import proofs.«114171_j73443940761815_2_alg».proof.Proof.Gen.KernelIdeal.Skeleton
import proofs.«114171_j73443940761815_2_alg».proof.Proof.LibPlainMatmul
import Idealize.ShloMosaic.Lib.Pipeline.Value

noncomputable section

open scoped BigOperators

namespace Cert.HashHead

open Idealize.ShloMosaic Idealize.ShloMosaic.ValueIdx Cert.KernelIdeal Cert.KernelIdeal.Gen

/-- The body's stored value at entry (p, q): the block's row p against the weights' column q. -/
theorem payload_ix2 (x0 : Vec Ideal S16384x8 .bf16) (x1 : Vec Ideal S8x48 .bf16) (p : Fin 16384) (q : Fin 48) :
    k0_pay1 (F := Ideal) x0 x1 (ix2 p q) = ∑ k : Fin 8, x0 (ix2 p k) * x1 (ix2 k q) := by
  unfold k0_pay1
  simp only [shapeCast_self]
  exact Cert.EdgeScore.Lib.matmul_zero_ix2_apply dot_S16384x8_S8x48_S16384x48_1_0_0_1_n_n rfl rfl
    (fun i q => by
      unfold DotDims.lhsIdx
      rw [dif_neg (show ¬(0 : Fin S16384x8.rank) ∈ dot_S16384x8_S8x48_S16384x48_1_0_0_1_n_n.lhsBatch by decide),
        dif_pos (show (0 : Fin S16384x8.rank) ∈ dot_S16384x8_S8x48_S16384x48_1_0_0_1_n_n.lhsNonContracting by decide)]
      rfl)
    (fun i q => dot_S16384x8_S8x48_S16384x48_1_0_0_1_n_n.lhsIdx_val_of_single rfl i q)
    (fun i q => dot_S16384x8_S8x48_S16384x48_1_0_0_1_n_n.rhsIdx_val_of_single rfl i q)
    (fun i q => by
      unfold DotDims.rhsIdx
      rw [dif_neg (show ¬(1 : Fin S8x48.rank) ∈ dot_S16384x8_S8x48_S16384x48_1_0_0_1_n_n.rhsBatch by decide),
        dif_pos (show (1 : Fin S8x48.rank) ∈ dot_S16384x8_S8x48_S16384x48_1_0_0_1_n_n.rhsNonContracting by decide)]
      rfl)
    none x0 x1 p q

end Cert.HashHead

end
-- ==== Proof.Spec.lean ====
/-
  The linear head of the hashed-grid encoder, as one function of a feature matrix and a weight matrix.

  Both programs look the per-level codebook rows up by the same host operations and lay the two looked-up
  halves side by side into a feature matrix of 2097152 rows and 8 columns; both then multiply that matrix by the
  8 × 48 weight matrix. Over the extended reals the product's entry at row r and column j is the sum over the eight
  feature columns k of feature (r, k) times weight (k, j). This module states that function on the literal shapes, so
  that the kernel's blocks and the reference's whole product can both be read against it.
-/
import Idealize.ShloMosaic.PureOps.Ideal
import Idealize.ShloMosaic.Lib.ValueIdx

noncomputable section

open scoped BigOperators

namespace Cert.HashHead

open Idealize.ShloMosaic Idealize.ShloMosaic.ValueIdx

/-- The feature matrix's index set, the weight matrix's and the result's. -/
abbrev FeatS : Shape := ⟨2, ![2097152, 8]⟩
abbrev WgtS : Shape := ⟨2, ![8, 48]⟩
abbrev OutS : Shape := ⟨2, ![2097152, 48]⟩

/-- Entry (r, j) of the product: the eight products along the contracted axis, added. -/
def headAt (feats : FeatS.Idx → EReal) (w : WgtS.Idx → EReal) (r : Fin 2097152) (j : Fin 48) : EReal :=
  ∑ k : Fin 8, feats (ix2 r k) * w (ix2 k j)

/-- The whole product, index by index. -/
def head (feats : FeatS.Idx → EReal) (w : WgtS.Idx → EReal) : OutS.Idx → EReal :=
  fun i => headAt feats w (i 0) (i 1)

theorem head_ix2 (feats : FeatS.Idx → EReal) (w : WgtS.Idx → EReal) (r : Fin 2097152) (j : Fin 48) :
    head feats w (ix2 r j) = ∑ k : Fin 8, feats (ix2 r k) * w (ix2 k j) := rfl

end Cert.HashHead

end
-- ==== Proof.HostPrefix.lean ====
/-
  What the kernel's two staged arrays hold when the region is entered.

  Before its one region the kernel runs the same host operations as the reference — the two codebook slices, the
  per-column index pairs, the two lookups, the concatenation into the 2097152 × 8 feature matrix — and then changes the
  format of the feature matrix and of the weight matrix. At the exact instance a change of format is the identity, so
  the first staged array is the feature matrix the reference computes from the same arguments, and the second is the
  weight argument itself.
-/
import proofs.«114171_j73443940761815_2_alg».proof.Proof.Gen.KernelIdeal.Frame
import proofs.«114171_j73443940761815_2_alg».proof.Proof.Gen.ReferenceIdeal.Read
import proofs.«114171_j73443940761815_2_alg».proof.Proof.Spec
import Idealize.ShloMosaic.Lib.StableHlo.Run

noncomputable section

namespace Cert.HashHead

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The feature matrix of a launch memory: the reference's own term for it, of the codebook and the two index maps. -/
abbrev featsOf (c : Dev nD) : FeatS.Idx → EReal :=
  Cert.ReferenceIdeal.Read.val_main_v36 (F := Ideal) (m ((c : Thread nD τ).loc main_arg0))
    (m ((c : Thread nD τ).loc main_arg2)) (m ((c : Thread nD τ).loc main_arg3))

/-- The weight matrix of a launch memory. -/
abbrev wgtOf (c : Dev nD) : WgtS.Idx → EReal := m ((c : Thread nD τ).loc main_arg1)

set_option maxRecDepth 8192 in
set_option maxHeartbeats 2000000 in
/-- The first staged array is the feature matrix: the host operations before the region are the reference's, and the
    change of format after them is the identity. -/
theorem V_feats (c : Dev nD) : (V m c main_v37 : FeatS.Idx → EReal) = featsOf m c := by
  dsimp only [Gen.V, Gen.hostOps0]
  after_results_simp
  rfl

set_option maxRecDepth 8192 in
set_option maxHeartbeats 2000000 in
/-- The second staged array is the weight argument: its change of format is the identity. -/
theorem V_wgt (c : Dev nD) : (V m c main_v38 : WgtS.Idx → EReal) = wgtOf m c := by
  dsimp only [Gen.V, Gen.hostOps0]
  after_results_simp
  rfl

end Cert.HashHead

end
-- ==== Proof.Blocks.lean ====
/-
  From the kernel's blocks to its whole result array.

  The grid has 128 points. Point t loads rows 16384·t … 16384·t + 16383 of the feature matrix and the whole weight matrix,
  and writes rows 16384·t … 16384·t + 16383 of the result. An entry (p, q) of the block point t writes is the sum over k of
  block entry (p, k) times weight (k, q), that is, entry (16384·t + p, q) of the linear head of the feature matrix and the
  weights. The 128 row blocks tile the result array (row r is in the block of point r / 16384), so the array after the
  run is the linear head.
-/
import proofs.«114171_j73443940761815_2_alg».proof.Proof.Gen.KernelIdeal.Value
import proofs.«114171_j73443940761815_2_alg».proof.Proof.KernelPayload
import proofs.«114171_j73443940761815_2_alg».proof.Proof.HostPrefix
import proofs.«114171_j73443940761815_2_alg».proof.Proof.Spec
import Idealize.ShloMosaic.Lib.Pipeline.Value

noncomputable section

open scoped BigOperators

namespace Cert.HashHead

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_off : (![0, 0] : Fin 2 → Nat) = fun _ => 0 := funext fun a => by fin_cases a <;> rfl

/-- The three index maps over the grid: the feature window and the result window move down one row block per point,
    the weight window stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's feature block is the feature matrix at row 16384·t + p. -/
theorem feat_block_apply (c : Dev nD) (t : Fin cfg0.N) (p : Fin 16384) (k : Fin 8) (r : Fin 2097152)
    (hr : r.val = t.val * 16384 + p.val) :
    (iblk m c 0 t : Vec Ideal S16384x8 .bf16) (ix2 p k) = featsOf m c (ix2 r k) := by
  obtain ⟨e0, e1, -⟩ := block_index t
  unfold iblk
  rw [View.read_apply]
  show V m c main_v37 _ = _
  refine (congrFun (V_feats m c) _).trans ?_
  refine congrArg (featsOf m c) ?_
  funext a
  apply Fin.ext
  match a with
  | ⟨0, _⟩ => show win0_0.index t (0 : Fin 2) * 16384 + 1 * p.val = r.val; omega
  | ⟨1, _⟩ => show win0_0.index t (1 : Fin 2) * 8 + 1 * k.val = k.val; omega

/-- Every point's weight block is the weight matrix. -/
theorem wgt_block_apply (c : Dev nD) (t : Fin cfg0.N) (k : Fin 8) (q : Fin 48) :
    (iblk m c 1 t : Vec Ideal S8x48 .bf16) (ix2 k q) = wgtOf m c (ix2 k q) := by
  obtain ⟨-, -, e2, e3, -⟩ := block_index t
  unfold iblk
  rw [View.read_apply]
  show V m c main_v38 _ = _
  refine (congrFun (V_wgt m c) _).trans ?_
  refine congrArg (wgtOf m c) ?_
  funext a
  apply Fin.ext
  match a with
  | ⟨0, _⟩ => show win0_1.index t (0 : Fin 2) * 8 + 1 * k.val = k.val; omega
  | ⟨1, _⟩ => show win0_1.index t (1 : Fin 2) * 48 + 1 * q.val = q.val; omega

/-- What point t writes back is block t of the linear head of the feature matrix and the weights. -/
theorem flushed_eq (c : Dev nD) (t : Fin cfg0.N) :
    (dats m 0 c).flushed 2 t = ((cfg0.win 2).blk t).view.read (Elt Ideal) (head (featsOf m c) (wgtOf m c)) := by
  rw [Value.flushed2]
  unfold out0_2
  rw [View.canon_unit_zero zero_off]
  simp only [View.ld_unit_zero (S := S16384x8) zero_off, View.ld_unit_zero (S := S8x48) zero_off]
  obtain ⟨-, -, -, -, e4, e5⟩ := block_index t
  have ht : t.val < 128 := lt_of_lt_of_eq t.isLt N_0
  funext j
  obtain ⟨p, q, rfl⟩ : ∃ (p : Fin 16384) (q : Fin 48), j = ix2 p q := ⟨j 0, j 1, eq_ix2 j⟩
  have hp : p.val < 16384 := p.isLt
  obtain ⟨r, hr⟩ : ∃ r : Fin 2097152, r.val = t.val * 16384 + p.val := ⟨⟨t.val * 16384 + p.val, by omega⟩, rfl⟩
  show k0_pay1 (iblk m c 0 t) (iblk m c 1 t) (ix2 p q)
    = head (featsOf m c) (wgtOf m c) (((cfg0.win 2).blk t).view.emb (ix2 p q))
  have hemb : ((cfg0.win 2).blk t).view.emb (ix2 p q) = (ix2 r q : OutS.Idx) := by
    funext a
    apply Fin.ext
    match a with
    | ⟨0, _⟩ => show win0_2.index t (0 : Fin 2) * 16384 + 1 * p.val = r.val; omega
    | ⟨1, _⟩ => show win0_2.index t (1 : Fin 2) * 48 + 1 * q.val = q.val; omega
  rw [hemb, head_ix2]
  refine (payload_ix2 (iblk m c 0 t) (iblk m c 1 t) p q).trans ?_
  refine Finset.sum_congr rfl fun k _ => ?_
  rw [feat_block_apply m c t p k r hr, wgt_block_apply m c t k q]

/-- An index of the result array is in point t's block iff each coordinate is in the block's range on its axis. -/
theorem mem_block (t : Fin cfg0.N) (i : S2097152x48.Idx) :
    i ∈ ((cfg0.win 2).blk t).view.set ↔ ∀ a : Fin 2, win0_2.index t a * S16384x48.size a ≤ (i a).val
      ∧ (i a).val < win0_2.index t a * S16384x48.size a + S16384x48.size a := by
  show i ∈ ((View.whole main_v39).slice (win0_2.rect t)).set ↔ _
  rw [View.set_slice_whole, Rect.mem_set_unit]
  exact Iff.rfl

/-- Row r of the result is in the block of point r / 16384. -/
theorem covered (i : S2097152x48.Idx) :
    ∃ t : Fin cfg0.N, (cfg0.win 2).flush t = true ∧ i ∈ ((cfg0.win 2).blk t).view.set := by
  have hi0 : (i 0).val < 2097152 := (i 0).isLt
  have hi1 : (i 1).val < 48 := (i 1).isLt
  obtain ⟨t, ht⟩ : ∃ t : Fin cfg0.N, t.val = (i 0).val / 16384 :=
    ⟨⟨(i 0).val / 16384, by rw [show cfg0.N = 128 from N_0]; omega⟩, rfl⟩
  obtain ⟨-, -, -, -, e4, e5⟩ := block_index t
  refine ⟨t, flush0_2 t, ?_⟩
  rw [mem_block]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 48 ≤ (i 1).val ∧ (i 1).val < win0_2.index t (1 : Fin 2) * 48 + 48
    omega

/-- The result array after the run is the linear head of the feature matrix and the weights. -/
theorem final (c : Dev nD) : (dats m 0 c).arrAt 2 cfg0.N = head (featsOf m c) (wgtOf m c) :=
  (dats m 0 c).arrAt_eq_of_cover 2 (head (featsOf m c) (wgtOf m c)) (fun t _ => flushed_eq m c t) covered

/-- The kernel's run, read: the result array at the linear head, the arguments unchanged. -/
theorem kernel_run : θ_run defs (onTc (τ := τ) (main (F := Ideal))) ⟨m, fun _ => 0, ρ⟩ fun r => ∀ c : Dev nD,
      r.2.mem ((c : Thread nD τ).loc main_v39) = head (featsOf m c) (wgtOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.HashHead

end
-- ==== Proof.RefProduct.lean ====
/-
  The reference's result is the linear head of its own feature matrix.

  The reference ends with one whole matrix product of the 2097152 × 8 feature matrix and the 8 × 48 weight argument.
  At the exact instance the entry at (r, j) of that product is the sum over the contracted axis k of feature (r, k)
  times weight (k, j): the function `head`.
-/
import proofs.«114171_j73443940761815_2_alg».proof.Proof.Gen.ReferenceIdeal.Read
import proofs.«114171_j73443940761815_2_alg».proof.Proof.Spec

noncomputable section

open scoped BigOperators

namespace Cert.HashHead

open Idealize.ShloMosaic Idealize.ShloMosaic.ValueIdx
open Cert.ReferenceIdeal Cert.ReferenceIdeal.Read

/-- The reference's last stage, index by index, is `head` of the stage before it and the weight argument. -/
theorem ref_is_head (x0 : (⟨S327680x4, .f32⟩ : BufTy).Contents (Elt Ideal)) (x1 : (⟨S8x48, .f32⟩ : BufTy).Contents (Elt Ideal))
    (x2 x3 : (⟨S2097152x4, .i32⟩ : BufTy).Contents (Elt Ideal)) :
    val_main_v37 (F := Ideal) x0 x1 x2 x3 = head (val_main_v36 (F := Ideal) x0 x2 x3) x1 := by
  funext i
  rw [val_main_v37_apply]
  have el : ∀ k : Fin 8, lidx_main_v37 i k = (ix2 (i 0) k : FeatS.Idx) := fun k => funext fun a => Fin.ext (by
    match a with
    | ⟨0, _⟩ => rfl
    | ⟨1, _⟩ => rfl)
  have er : ∀ k : Fin 8, ridx_main_v37 i k = (ix2 k (i 1) : WgtS.Idx) := fun k => funext fun a => Fin.ext (by
    match a with
    | ⟨0, _⟩ => rfl
    | ⟨1, _⟩ => rfl)
  show _ = ∑ k : Fin 8, (val_main_v36 (F := Ideal) x0 x2 x3) (ix2 (i 0) k) * x1 (ix2 k (i 1))
  refine Finset.sum_congr rfl fun k _ => ?_
  rw [el k, er k]

end Cert.HashHead

end
-- ==== Proof.lean ====
/-
  The hashed-grid encoder's linear head: a tiled kernel against one whole matrix product.

  Both programs start from the same arguments — a stacked codebook, a weight matrix and two tables of row indices — and
  run the same host operations: the codebook is cut into its two levels, each level's rows are looked up per column
  through its index table, and the two looked-up halves are laid side by side into a feature matrix of 2097152 rows and
  8 columns. The reference multiplies that matrix by the 8 × 48 weight matrix in one product. The kernel changes the
  format of both factors (the identity on the extended reals), cuts the feature matrix into 128 blocks of 16384 rows and
  multiplies each block by the weights into its own block of result rows, accumulating into zero.

  On the extended reals both results are, at row r and column j, the sum over the eight feature columns k of
  feature (r, k) times weight (k, j), the same eight products added in the same order; no law of arithmetic is
  needed, so the precondition is never opened. The modules: Spec (that function), KernelPayload (a block's stored
  entry), HostPrefix (the two staged arrays at region entry), Blocks (from the 128 blocks to the whole array),
  RefProduct (the reference's product is that function). The idealization rewrote nothing, so its conjunct is trivial.
-/
import proofs.«114171_j73443940761815_2_alg».proof.Defs
import proofs.«114171_j73443940761815_2_alg».proof.Proof.Gen.Kernel
import proofs.«114171_j73443940761815_2_alg».proof.Proof.Gen.Kernel.Frame
import proofs.«114171_j73443940761815_2_alg».proof.Proof.Gen.KernelIdeal
import proofs.«114171_j73443940761815_2_alg».proof.Proof.Gen.KernelIdeal.Frame
import proofs.«114171_j73443940761815_2_alg».proof.Proof.Gen.KernelIdeal.Value
import proofs.«114171_j73443940761815_2_alg».proof.Proof.Gen.ReferenceIdeal
import proofs.«114171_j73443940761815_2_alg».proof.Proof.Gen.ReferenceIdeal.Run
import proofs.«114171_j73443940761815_2_alg».proof.Proof.Gen.ReferenceIdeal.Read
import proofs.«114171_j73443940761815_2_alg».proof.Proof.Gen.Pre_finite_inputs
import proofs.«114171_j73443940761815_2_alg».proof.Proof.Blocks
import proofs.«114171_j73443940761815_2_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- From memories that agree on the arguments both programs end with the linear head of the looked-up feature matrix
    and the weight argument: the kernel block by block, the reference in one product. -/
theorem algebraic : Cert.algebraic_KernelIdeal_ReferenceIdeal := by
  intro m ρ m' ρ' _ hagree
  refine ⟨fun c => Cert.HashHead.head (Cert.HashHead.featsOf m c) (Cert.HashHead.wgtOf m c),
    Cert.HashHead.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.HashHead.ref_is_head,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
